-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x12 : Shape := ⟨3, ![32, 4096, 12]⟩
abbrev S12x256 : Shape := ⟨2, ![12, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S32x4096x12 : S_.BroadcastsInDim S32x4096x12 (![] : Fin 0 → Fin S32x4096x12.rank)
  reducesTo_S32x4096x12_S_d0_1_2 : S32x4096x12.ReducesTo [0, 1, 2] S_
  h_S_ : 0 < S_.numel
  bcast_S_S12x256 : S_.BroadcastsInDim S12x256 (![] : Fin 0 → Fin S12x256.rank)
  reducesTo_S12x256_S_d0_1 : S12x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S32x4096x12 .f32) (main_arg1 : FVec F S12x256 .f32) (main_arg2 : FVec F S256 .f32) (main_arg3 : FVec F S256x128 .f32) (main_arg4 : FVec F S128 .f32) : IVec S_ 1 :=
  let main_v0 : FVec F S32x4096x12 .f32 := Host.absf main_arg0
  let main_cst : FVec F S_ .f32 := constant S_ .f32 0x7F800000#32
  let main_v1 : FVec F S32x4096x12 .f32 := broadcastInDim S32x4096x12 ![] bcast_S_S32x4096x12 main_cst
  let main_v2 : IVec S32x4096x12 1 := cmpf .olt main_v0 main_v1
  let main_c : IVec S_ 1 := constantI S_ 1 1#1
  let main_v3 : IVec S_ 1 := (fun x v => Host.reduce IntOp.andi x v reducesTo_S32x4096x12_S_d0_1_2 h_S_) main_v2 main_c
  let main_v4 : FVec F S12x256 .f32 := Host.absf main_arg1
  let main_cst_0 : FVec F S_ .f32 := constant S_ .f32 0x7F800000#32
  let main_v5 : FVec F S12x256 .f32 := broadcastInDim S12x256 ![] bcast_S_S12x256 main_cst_0
  let main_v6 : IVec S12x256 1 := cmpf .olt main_v4 main_v5
  let main_c_1 : IVec S_ 1 := constantI S_ 1 1#1
  let main_v7 : IVec S_ 1 := (fun x v => Host.reduce IntOp.andi x v reducesTo_S12x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S32x4096x12 : Shape := ⟨3, ![32, 4096, 12]⟩
abbrev S12x256 : Shape := ⟨2, ![12, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S32x4096x128 : Shape := ⟨3, ![32, 4096, 128]⟩
abbrev S4x4096x12 : Shape := ⟨3, ![4, 4096, 12]⟩
abbrev S4x4096x128 : Shape := ⟨3, ![4, 4096, 128]⟩
abbrev S4x12 : Shape := ⟨2, ![4, 12]⟩
abbrev S4x256 : Shape := ⟨2, ![4, 256]⟩
abbrev S4x128 : Shape := ⟨2, ![4, 128]⟩
abbrev S4x1x128 : Shape := ⟨3, ![4, 1, 128]⟩

abbrev nBuf : Space → Nat
  | .hbm => 8
  | .vmem => 8
  | .smem => 0
  | _ => 0

abbrev bufTy : (tb : Table) → Fin (tcTables nBuf tb) → BufTy
  | .hbm, ⟨0, _⟩ => ⟨S32x4096x12, .f32⟩
  | .hbm, ⟨1, _⟩ => ⟨S12x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S1x256, .f32⟩
  | .hbm, ⟨6, _⟩ => ⟨S1x128, .f32⟩
  | .hbm, ⟨7, _⟩ => ⟨S32x4096x128, .f32⟩
  | .local _ .vmem, ⟨0, _⟩ => ⟨S4x4096x12, .f32⟩
  | .local _ .vmem, ⟨1, _⟩ => ⟨S4x4096x12, .f32⟩
  | .local _ .vmem, ⟨2, _⟩ => ⟨S12x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S4x4096x128, .f32⟩
  | .local _ .vmem, ⟨7, _⟩ => ⟨S4x4096x128, .f32⟩
  | _, _ => ⟨S32x4096x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4096x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256_S1x256 : S256.ShapeCasts S1x256
  shapeCasts_S128_S1x128 : S128.ShapeCasts S1x128
  inb_S4x4096x12_S4x4096x12_0_0_0 : ∀ a, (![0, 0, 0] : Fin 3 → Nat) a + S4x4096x12.size a ≤ S4x4096x12.size a
  h_S4x4096x12 : 0 < S4x4096x12.numel
  reduces_S4x4096x12_S4x12 : S4x4096x12.Reduces [1] S4x12
  inb_S12x256_S12x256_0_0 : ∀ a, (![0, 0] : Fin 2 → Nat) a + S12x256.size a ≤ S12x256.size a
  h_S12x256 : 0 < S12x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4x256 : S1x256.Broadcasts S4x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4x128 : S1x128.Broadcasts S4x128
  shapeCasts_S4x128_S4x1x128 : S4x128.ShapeCasts S4x1x128
  broadcasts_S4x1x128_S4x4096x128 : S4x1x128.Broadcasts S4x4096x128
  inb_S4x4096x128_S4x4096x128_0_0_0 : ∀ a, (![0, 0, 0] : Fin 3 → Nat) a + S4x4096x128.size a ≤ S4x4096x128.size a
  h_S4x4096x128 : 0 < S4x4096x128.numel
  dot_S4x12_S12x256_S4x256_1_0_0_1_n_n_wf : DotDims.WF S4x12 S12x256 S4x256 [1] [0] [0] [1] [] []
  dot_S4x256_S256x128_S4x128_1_0_0_1_n_n_wf : DotDims.WF S4x256 S256x128 S4x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4096x12.size a ≤ S32x4096x12.size a
  hwx0_0 : ∀ i : grid0.Coords, EltTy.bits .f32 = 32 ∨ (Rect.block (s := S32x4096x12) S4x4096x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x256.size a ≤ S12x256.size a
  hwx0_1 : ∀ i : grid0.Coords, EltTy.bits .f32 = 32 ∨ (Rect.block (s := S12x256) S12x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x4096x128.size a ≤ S32x4096x128.size a
  hwx0_5 : ∀ i : grid0.Coords, EltTy.bits .f32 = 32 ∨ (Rect.block (s := S32x4096x128) S4x4096x128.size (cc0_transform_5 i) (hinb0_5 i)).WholeWords (EltTy.packing .f32)

variable [Facts₀]

def dot_S4x12_S12x256_S4x256_1_0_0_1_n_n : DotDims S4x12 S12x256 S4x256 where
  lhsContracting := [1]
  rhsContracting := [0]
  lhsNonContracting := [0]
  rhsNonContracting := [1]
  lhsBatch := []
  rhsBatch := []
  wf := dot_S4x12_S12x256_S4x256_1_0_0_1_n_n_wf
def dot_S4x256_S256x128_S4x128_1_0_0_1_n_n : DotDims S4x256 S256x128 S4x128 where
  lhsContracting := [1]
  rhsContracting := [0]
  lhsNonContracting := [0]
  rhsNonContracting := [1]
  lhsBatch := []
  rhsBatch := []
  wf := dot_S4x256_S256x128_S4x128_1_0_0_1_n_n_wf

abbrev win0_0 : Pipeline.Window sig grid0 :=
  Pipeline.Window.ofSpec (Memref.whole main_arg0) S4x4096x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S12x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4x4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x4096x12 : Shape := ⟨3, ![32, 4096, 12]⟩
abbrev S12x256 : Shape := ⟨2, ![12, 256]⟩
abbrev S256 : Shape := ⟨1, ![256]⟩
abbrev S256x128 : Shape := ⟨2, ![256, 128]⟩
abbrev S128 : Shape := ⟨1, ![128]⟩
abbrev S32x4096x256 : Shape := ⟨3, ![32, 4096, 256]⟩
abbrev S_ : Shape := ⟨0, ![]⟩
abbrev S32x256 : Shape := ⟨2, ![32, 256]⟩
abbrev S32x1x256 : Shape := ⟨3, ![32, 1, 256]⟩
abbrev S1x1x256 : Shape := ⟨3, ![1, 1, 256]⟩
abbrev S32x4096x128 : Shape := ⟨3, ![32, 4096, 128]⟩
abbrev S32x128 : Shape := ⟨2, ![32, 128]⟩
abbrev S32x1x128 : Shape := ⟨3, ![32, 1, 128]⟩
abbrev S1x1x128 : Shape := ⟨3, ![1, 1, 128]⟩

abbrev nBuf : Space → Nat
  | .hbm => 27
  | .vmem => 0
  | .smem => 0
  | _ => 0

abbrev bufTy : (tb : Table) → Fin (tcTables nBuf tb) → BufTy
  | .hbm, ⟨0, _⟩ => ⟨S32x4096x12, .f32⟩
  | .hbm, ⟨1, _⟩ => ⟨S12x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S32x4096x256, .f32⟩
  | .hbm, ⟨6, _⟩ => ⟨S_, .f32⟩
  | .hbm, ⟨7, _⟩ => ⟨S32x256, .f32⟩
  | .hbm, ⟨8, _⟩ => ⟨S32x1x256, .f32⟩
  | .hbm, ⟨9, _⟩ => ⟨S_, .f32⟩
  | .hbm, ⟨10, _⟩ => ⟨S32x1x256, .f32⟩
  | .hbm, ⟨11, _⟩ => ⟨S32x1x256, .f32⟩
  | .hbm, ⟨12, _⟩ => ⟨S32x4096x256, .f32⟩
  | .hbm, ⟨13, _⟩ => ⟨S1x1x256, .f32⟩
  | .hbm, ⟨14, _⟩ => ⟨S32x4096x256, .f32⟩
  | .hbm, ⟨15, _⟩ => ⟨S32x4096x256, .f32⟩
  | .hbm, ⟨16, _⟩ => ⟨S32x4096x128, .f32⟩
  | .hbm, ⟨17, _⟩ => ⟨S_, .f32⟩
  | .hbm, ⟨18, _⟩ => ⟨S32x128, .f32⟩
  | .hbm, ⟨19, _⟩ => ⟨S32x1x128, .f32⟩
  | .hbm, ⟨20, _⟩ => ⟨S_, .f32⟩
  | .hbm, ⟨21, _⟩ => ⟨S32x1x128, .f32⟩
  | .hbm, ⟨22, _⟩ => ⟨S32x1x128, .f32⟩
  | .hbm, ⟨23, _⟩ => ⟨S32x4096x128, .f32⟩
  | .hbm, ⟨24, _⟩ => ⟨S1x1x128, .f32⟩
  | .hbm, ⟨25, _⟩ => ⟨S32x4096x128, .f32⟩
  | .hbm, ⟨26, _⟩ => ⟨S32x4096x128, .f32⟩
  | _, _ => ⟨S32x4096x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S32x4096x256_S32x256_d1 : S32x4096x256.ReducesTo [1] S32x256
  h_S_ : 0 < S_.numel
  bcast_S32x256_S32x1x256_0_2 : S32x256.BroadcastsInDim S32x1x256 (![0, 2] : Fin 2 → Fin S32x1x256.rank)
  bcast_S_S32x1x256 : S_.BroadcastsInDim S32x1x256 (![] : Fin 0 → Fin S32x1x256.rank)
  bcast_S32x1x256_S32x4096x256_0_1_2 : S32x1x256.BroadcastsInDim S32x4096x256 (![0, 1, 2] : Fin 3 → Fin S32x4096x256.rank)
  bcast_S256_S1x1x256_2 : S256.BroadcastsInDim S1x1x256 (![2] : Fin 1 → Fin S1x1x256.rank)
  bcast_S1x1x256_S32x4096x256_0_1_2 : S1x1x256.BroadcastsInDim S32x4096x256 (![0, 1, 2] : Fin 3 → Fin S32x4096x256.rank)
  reducesTo_S32x4096x128_S32x128_d1 : S32x4096x128.ReducesTo [1] S32x128
  bcast_S32x128_S32x1x128_0_2 : S32x128.BroadcastsInDim S32x1x128 (![0, 2] : Fin 2 → Fin S32x1x128.rank)
  bcast_S_S32x1x128 : S_.BroadcastsInDim S32x1x128 (![] : Fin 0 → Fin S32x1x128.rank)
  bcast_S32x1x128_S32x4096x128_0_1_2 : S32x1x128.BroadcastsInDim S32x4096x128 (![0, 1, 2] : Fin 3 → Fin S32x4096x128.rank)
  bcast_S128_S1x1x128_2 : S128.BroadcastsInDim S1x1x128 (![2] : Fin 1 → Fin S1x1x128.rank)
  bcast_S1x1x128_S32x4096x128_0_1_2 : S1x1x128.BroadcastsInDim S32x4096x128 (![0, 1, 2] : Fin 3 → Fin S32x4096x128.rank)
  dot_S32x4096x12_S12x256_S32x4096x256_2_0_01_1_n_n_wf : DotDims.WF S32x4096x12 S12x256 S32x4096x256 [2] [0] [0, 1] [1] [] []
  dot_S32x4096x256_S256x128_S32x4096x128_2_0_01_1_n_n_wf : DotDims.WF S32x4096x256 S256x128 S32x4096x128 [2] [0] [0, 1] [1] [] []

variable [Facts₀]

def dot_S32x4096x12_S12x256_S32x4096x256_2_0_01_1_n_n : DotDims S32x4096x12 S12x256 S32x4096x256 where
  lhsContracting := [2]
  rhsContracting := [0]
  lhsNonContracting := [0, 1]
  rhsNonContracting := [1]
  lhsBatch := []
  rhsBatch := []
  wf := dot_S32x4096x12_S12x256_S32x4096x256_2_0_01_1_n_n_wf
def dot_S32x4096x256_S256x128_S32x4096x128_2_0_01_1_n_n : DotDims S32x4096x256 S256x128 S32x4096x128 where
  lhsContracting := [2]
  rhsContracting := [0]
  lhsNonContracting := [0, 1]
  rhsNonContracting := [1]
  lhsBatch := []
  rhsBatch := []
  wf := dot_S32x4096x256_S256x128_S32x4096x128_2_0_01_1_n_n_wf

class Facts : Prop extends Facts₀ where

variable [Facts]
-- ==== Proof.MeanLinear.lean ====
/-
  The two readings of the network, as functions of the argument arrays on the extended reals.

  Each of the two graph-convolution layers averages over the 4096 nodes and then adds a bias, and the layer's linear map
  commutes with the average.  The kernel averages the input first and multiplies afterwards,
      out[b, n, o] = Σ_h (Σ_f (Σ_n x[b, n, f] / 4096) · W1[f, h] + b1[h]) · W2[h, o] + b2[o]                    (`viaMean`),
  the reference multiplies every node and averages afterwards, twice,
      out[b, n, o] = (Σ_n Σ_h ((Σ_n' Σ_f x[b, n', f] · W1[f, h]) / 4096 + b1[h]) · W2[h, o]) / 4096 + b2[o]     (`viaNodes`).
  On real (finite) arguments the two agree: a finite sum exchanges with a finite sum, a constant factor and the division
  by 4096 leave a sum, and the second layer averages 4096 equal numbers.  On the extended reals these laws need the
  arguments finite, so the law is proved over the reals and carried across the coercion.
-/
import Idealize.ShloMosaic.PureOps.Ideal
import Idealize.ShloMosaic.PureOps.Ideal.Laws
import Idealize.ShloMosaic.Lib.ValueIdx

noncomputable section

namespace Cert.MeanLinear

open Idealize.ShloMosaic Idealize.ShloMosaic.ValueIdx

/-- The word `0x45800000` is the real number 4096, the number of nodes. -/
theorem nodes_word : Ideal.ofBits .f32 0x45800000#32 = ((4096 : ℝ) : EReal) := by
  simp [Ideal.ofBits, Ideal.ieee, -EReal.coe_mul]; norm_num

/-- The coercion from the reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing a real by the node count's word is dividing by 4096. -/
theorem div_nodes (a : ℝ) : Ideal.div (a : EReal) (Ideal.ofBits .f32 0x45800000#32) = ((a / 4096 : ℝ) : EReal) := by
  rw [nodes_word, Ideal.div_coe (by norm_num), ← EReal.coe_mul]
  congr 1; ring

/-! ## The two readings -/

section
variable (x : (⟨3, ![32, 4096, 12]⟩ : Shape).Idx → EReal) (w1 : (⟨2, ![12, 256]⟩ : Shape).Idx → EReal)
  (b1 : (⟨1, ![256]⟩ : Shape).Idx → EReal) (w2 : (⟨2, ![256, 128]⟩ : Shape).Idx → EReal) (b2 : (⟨1, ![128]⟩ : Shape).Idx → EReal)

/-- The first layer on the node average of batch row `b`, at hidden unit `h`. -/
def hiddenOfMean (b : Fin 32) (h : Fin 256) : EReal :=
  (∑ f : Fin 12, Ideal.div (∑ n : Fin 4096, x (ix3 b n f)) (Ideal.ofBits .f32 0x45800000#32) * w1 (ix2 f h)) + b1 (ix1 h)

/-- The second layer on that hidden row, at batch row `b` and output unit `o`. -/
def outOfMean (b : Fin 32) (o : Fin 128) : EReal :=
  (∑ h : Fin 256, hiddenOfMean x w1 b1 b h * w2 (ix2 h o)) + b2 (ix1 o)

/-- The network with the average taken first: constant over the node axis. -/
def viaMean : (⟨3, ![32, 4096, 128]⟩ : Shape).Idx → EReal := fun i => outOfMean x w1 b1 w2 b2 (i 0) (i 2)

/-- The first layer applied to every node and then averaged, at hidden unit `h`. -/
def hiddenOfNodes (b : Fin 32) (h : Fin 256) : EReal :=
  Ideal.div (Ideal.ofBits .f32 0x00000000#32 + ∑ n : Fin 4096, ∑ f : Fin 12, x (ix3 b n f) * w1 (ix2 f h))
    (Ideal.ofBits .f32 0x45800000#32) + b1 (ix1 h)

/-- The second layer applied to every node's hidden row (all equal) and then averaged. -/
def outOfNodes (b : Fin 32) (o : Fin 128) : EReal :=
  Ideal.div (Ideal.ofBits .f32 0x00000000#32 + ∑ _n : Fin 4096, ∑ h : Fin 256, hiddenOfNodes x w1 b1 b h * w2 (ix2 h o))
    (Ideal.ofBits .f32 0x45800000#32) + b2 (ix1 o)

/-- The network node by node, each layer averaged after its linear map. -/
def viaNodes : (⟨3, ![32, 4096, 128]⟩ : Shape).Idx → EReal := fun i => outOfNodes x w1 b1 w2 b2 (i 0) (i 2)
end

/-! ## The law, over the reals -/

/-- Averaging the images of 4096 nodes under a linear map is the image of their average, and averaging 4096 copies of
    one number returns it. -/
theorem mean_linear (X : Fin 4096 → Fin 12 → ℝ) (W1 : Fin 12 → Fin 256 → ℝ) (B1 : Fin 256 → ℝ) (W2 : Fin 256 → ℝ) (c : ℝ) :
    (∑ _n : Fin 4096, ∑ h : Fin 256, ((∑ n' : Fin 4096, ∑ f : Fin 12, X n' f * W1 f h) / 4096 + B1 h) * W2 h) / 4096 + c
      = (∑ h : Fin 256, ((∑ f : Fin 12, (∑ n : Fin 4096, X n f) / 4096 * W1 f h) + B1 h) * W2 h) + c := by
  have hh : ∀ h : Fin 256, (∑ n' : Fin 4096, ∑ f : Fin 12, X n' f * W1 f h) / 4096
      = ∑ f : Fin 12, (∑ n : Fin 4096, X n f) / 4096 * W1 f h := by
    intro h
    rw [Finset.sum_comm, Finset.sum_div]
    refine Finset.sum_congr rfl fun f _ => ?_
    rw [← Finset.sum_mul]; ring
  simp only [hh]
  rw [Finset.sum_const, Finset.card_univ, Fintype.card_fin, nsmul_eq_mul]
  push_cast
  rw [mul_div_cancel_left₀ _ (by norm_num : (4096 : ℝ) ≠ 0)]

/-! ## The law carried to finite extended reals -/

section
variable (X : (⟨3, ![32, 4096, 12]⟩ : Shape).Idx → ℝ) (W1 : (⟨2, ![12, 256]⟩ : Shape).Idx → ℝ)
  (B1 : (⟨1, ![256]⟩ : Shape).Idx → ℝ) (W2 : (⟨2, ![256, 128]⟩ : Shape).Idx → ℝ) (B2 : (⟨1, ![128]⟩ : Shape).Idx → ℝ)

theorem hiddenOfMean_coe (b : Fin 32) (h : Fin 256) :
    hiddenOfMean (fun i => (X i : EReal)) (fun i => (W1 i : EReal)) (fun i => (B1 i : EReal)) b h
      = (((∑ f : Fin 12, (∑ n : Fin 4096, X (ix3 b n f)) / 4096 * W1 (ix2 f h)) + B1 (ix1 h) : ℝ) : EReal) := by
  unfold hiddenOfMean
  simp only [← coe_sum, div_nodes, ← EReal.coe_mul, ← EReal.coe_add]

theorem hiddenOfNodes_coe (b : Fin 32) (h : Fin 256) :
    hiddenOfNodes (fun i => (X i : EReal)) (fun i => (W1 i : EReal)) (fun i => (B1 i : EReal)) b h
      = (((∑ n : Fin 4096, ∑ f : Fin 12, X (ix3 b n f) * W1 (ix2 f h)) / 4096 + B1 (ix1 h) : ℝ) : EReal) := by
  unfold hiddenOfNodes
  simp only [Ideal.ofBits_zero_f32, zero_add, ← EReal.coe_mul, ← coe_sum, div_nodes, ← EReal.coe_add]

theorem outOfNodes_eq_outOfMean (b : Fin 32) (o : Fin 128) :
    outOfNodes (fun i => (X i : EReal)) (fun i => (W1 i : EReal)) (fun i => (B1 i : EReal)) (fun i => (W2 i : EReal)) (fun i => (B2 i : EReal)) b o
      = outOfMean (fun i => (X i : EReal)) (fun i => (W1 i : EReal)) (fun i => (B1 i : EReal)) (fun i => (W2 i : EReal)) (fun i => (B2 i : EReal)) b o := by
  unfold outOfNodes outOfMean
  simp only [hiddenOfMean_coe, hiddenOfNodes_coe, Ideal.ofBits_zero_f32, zero_add, ← EReal.coe_mul, ← coe_sum, div_nodes,
    ← EReal.coe_add]
  congr 1
  exact mean_linear (fun n f => X (ix3 b n f)) (fun f h => W1 (ix2 f h)) (fun h => B1 (ix1 h)) (fun h => W2 (ix2 h o)) (B2 (ix1 o))

/-- On finite arguments the node-by-node reading is the average-first reading. -/
theorem viaNodes_eq_viaMean :
    viaNodes (fun i => (X i : EReal)) (fun i => (W1 i : EReal)) (fun i => (B1 i : EReal)) (fun i => (W2 i : EReal)) (fun i => (B2 i : EReal))
      = viaMean (fun i => (X i : EReal)) (fun i => (W1 i : EReal)) (fun i => (B1 i : EReal)) (fun i => (W2 i : EReal)) (fun i => (B2 i : EReal)) :=
  funext fun i => outOfNodes_eq_outOfMean X W1 B1 W2 B2 (i 0) (i 2)
end

end Cert.MeanLinear

end
-- ==== Proof.NodeByNode.lean ====
/-
  The reference, read index by index: its twenty-two host operations compose to the node-by-node reading of the network
  (`MeanLinear.viaNodes`) — each layer a `dot_general` over the feature axis, a sum over the 4096 nodes divided by 4096
  and broadcast back over the node axis, plus the bias broadcast over batch and nodes.
-/
import proofs.«161491_j60945585930893_2_alg».proof.Proof.Gen.ReferenceIdeal.Read
import proofs.«161491_j60945585930893_2_alg».proof.Proof.MeanLinear

noncomputable section

namespace Cert.ReferenceIdeal.NodeByNode

open Cert.ReferenceIdeal Cert.ReferenceIdeal.Gen Cert.ReferenceIdeal.Read Idealize.ShloMosaic Idealize.ShloMosaic.ValueIdx

/-- The reference's result is the node-by-node reading of the argument arrays.  Every composed index function of the
    operations' readings is a coordinate-wise re-spelling of (batch row, node, feature), (feature, hidden), (hidden),
    (hidden, output) and (output). -/
theorem result_eq (x0 : (⟨S32x4096x12, .f32⟩ : BufTy).Contents (Elt Ideal)) (x1 : (⟨S12x256, .f32⟩ : BufTy).Contents (Elt Ideal))
    (x2 : (⟨S256, .f32⟩ : BufTy).Contents (Elt Ideal)) (x3 : (⟨S256x128, .f32⟩ : BufTy).Contents (Elt Ideal))
    (x4 : (⟨S128, .f32⟩ : BufTy).Contents (Elt Ideal)) :
    val_main_v17 (F := Ideal) x0 x1 x2 x3 x4 = Cert.MeanLinear.viaNodes x0 x1 x2 x3 x4 := by
  funext i
  simp only [val_main_v17_apply, val_main_v16_apply, val_main_v15_apply, val_main_v14_apply, val_main_v13_apply, val_main_v12_apply,
    val_main_cst_2_apply, val_main_v11_apply, val_main_v10_apply, val_main_cst_1_apply, val_main_v9_apply, val_main_v8_apply,
    val_main_v7_apply, val_main_v6_apply, val_main_v5_apply, val_main_v4_apply, val_main_v3_apply, val_main_cst_0_apply,
    val_main_v2_apply, val_main_v1_apply, val_main_cst_apply, val_main_v0_apply,
    Ideal.hostDivf_def, Ideal.addf_def, Ideal.ofBits_def]
  unfold Cert.MeanLinear.viaNodes Cert.MeanLinear.outOfNodes Cert.MeanLinear.hiddenOfNodes
  have e0 : ∀ (n : Fin 4096) (h : Fin 256) (n' : Fin 4096) (f : Fin 12),
      lidx_main_v0 (idx_main_v1 (idx_main_v2 (idx_main_v5 (lidx_main_v9 (idx_main_v10 (idx_main_v11 (idx_main_v14 i)) n) h))) n') f
        = ix3 (i 0) n' f :=
    fun n h n' f => funext fun a => Fin.ext (by match a with | ⟨0, _⟩ => rfl | ⟨1, _⟩ => rfl | ⟨2, _⟩ => rfl)
  have e1 : ∀ (n : Fin 4096) (h : Fin 256) (n' : Fin 4096) (f : Fin 12),
      ridx_main_v0 (idx_main_v1 (idx_main_v2 (idx_main_v5 (lidx_main_v9 (idx_main_v10 (idx_main_v11 (idx_main_v14 i)) n) h))) n') f
        = ix2 f h :=
    fun n h n' f => funext fun a => Fin.ext (by match a with | ⟨0, _⟩ => rfl | ⟨1, _⟩ => rfl)
  have e2 : ∀ (n : Fin 4096) (h : Fin 256),
      idx_main_v6 (idx_main_v7 (lidx_main_v9 (idx_main_v10 (idx_main_v11 (idx_main_v14 i)) n) h)) = ix1 h :=
    fun n h => funext fun a => Fin.ext (by match a with | ⟨0, _⟩ => rfl)
  have e3 : ∀ (n : Fin 4096) (h : Fin 256),
      ridx_main_v9 (idx_main_v10 (idx_main_v11 (idx_main_v14 i)) n) h = ix2 h (i 2) :=
    fun n h => funext fun a => Fin.ext (by match a with | ⟨0, _⟩ => rfl | ⟨1, _⟩ => rfl)
  have e4 : idx_main_v15 (idx_main_v16 i) = ix1 (i 2) :=
    funext fun a => Fin.ext (by match a with | ⟨0, _⟩ => rfl)
  simp only [e0, e1, e2, e3, e4]
  rfl

end Cert.ReferenceIdeal.NodeByNode

end
-- ==== Proof.FiniteArgs.lean ====
/-
  From the precondition to real numbers.  The precondition says of each of the five argument arrays that every entry's
  absolute value is below +∞: a conjunction of five "all" reductions of such comparisons.  On the extended reals
  |x| < ⊤ excludes both infinities, so every entry is the image of a real, and each array is the coercion of an array
  of reals.
-/
import proofs.«161491_j60945585930893_2_alg».proof.Proof.Gen.Pre_finite_inputs
import Idealize.ShloMosaic.PureOps.Ideal
import Idealize.ShloMosaic.Lib.ReduceAll
import Idealize.ShloMosaic.Lib.ValueIdx

noncomputable section

namespace Cert.FiniteArgs

open Idealize.ShloMosaic Idealize.ShloMosaic.ValueIdx Cert.Pre_finite_inputs

/-- The word `0x7F800000` is +∞. -/
theorem inf_word : Ideal.ofBits .f32 0x7F800000#32 = (⊤ : EReal) := by
  simp [Ideal.ofBits, Ideal.ieee]

/-- An extended real whose absolute value compares below +∞ is a real. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | top => simp [Ideal.cmp] at h
  | coe r => exact ⟨r, rfl⟩

instance : Subsingleton S_.Idx := ⟨fun a b => funext fun d => d.elim0⟩

/-- An array whose every entry is a real is the coercion of an array of reals. -/
theorem coe_of_forall {ι : Type} (a : ι → EReal) (h : ∀ i, ∃ r : ℝ, a i = (r : EReal)) :
    ∃ A : ι → ℝ, a = fun i => (A i : EReal) :=
  ⟨fun i => (h i).choose, funext fun i => (h i).choose_spec⟩

/-- Under the precondition each of the five argument arrays is the coercion of an array of reals. -/
theorem reals_of_pre (a0 : FVec Ideal S32x4096x12 .f32) (a1 : FVec Ideal S12x256 .f32) (a2 : FVec Ideal S256 .f32)
    (a3 : FVec Ideal S256x128 .f32) (a4 : FVec Ideal S128 .f32) (h : fn (F := Ideal) a0 a1 a2 a3 a4 = fun _ => 1#1) :
    (∃ A0 : S32x4096x12.Idx → ℝ, a0 = fun i => (A0 i : EReal)) ∧ (∃ A1 : S12x256.Idx → ℝ, a1 = fun i => (A1 i : EReal))
      ∧ (∃ A2 : S256.Idx → ℝ, a2 = fun i => (A2 i : EReal)) ∧ (∃ A3 : S256x128.Idx → ℝ, a3 = fun i => (A3 i : EReal))
      ∧ (∃ A4 : S128.Idx → ℝ, a4 = fun i => (A4 i : EReal)) := by
  have h0 := congrFun h ix0
  dsimp only [fn, fn_part1] at h0
  obtain ⟨h18, h22⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  exact ⟨coe_of_forall a0 fun i => real_of_abs_lt_inf _ (Host.reduce_andi_all _ _ _ _ _ h3 i),
    coe_of_forall a1 fun i => real_of_abs_lt_inf _ (Host.reduce_andi_all _ _ _ _ _ h7 i),
    coe_of_forall a2 fun i => real_of_abs_lt_inf _ (Host.reduce_andi_all _ _ _ _ _ h12 i),
    coe_of_forall a3 fun i => real_of_abs_lt_inf _ (Host.reduce_andi_all _ _ _ _ _ h17 i),
    coe_of_forall a4 fun i => real_of_abs_lt_inf _ (Host.reduce_andi_all _ _ _ _ _ h22 i)⟩

end Cert.FiniteArgs

end
-- ==== Proof.StepValue.lean ====
/-
  What one grid step stores, read at an index of its output block.

  A step holds four batch rows.  From its input blocks — `x` (four rows of 4096 nodes by 12 features), `W1`, the bias row
  `b1` as a [1, 256] array, `W2`, the bias row `b2` as a [1, 128] array — it stores, at (row p, node n, output o),
      Σ_h (Σ_f (Σ_n' x[p, n', f] / 4096) · W1[f, h] + b1[0, h]) · W2[h, o] + b2[0, o],
  the same number at every node n: the sum over the node axis, the division by the node count, two matrix products into
  zero accumulators (plain sums at the ideal values), each followed by its bias row broadcast over the four rows, and
  the [4, 128] result broadcast along a new node axis.
-/
import proofs.«161491_j60945585930893_2_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Step

open Cert.KernelIdeal Cert.KernelIdeal.Gen Idealize.ShloMosaic Idealize.ShloMosaic.ValueIdx

/-! ## The layout operations at an index -/

/-- The [4, 128] result cast to [4, 1, 128] and broadcast over the 4096 nodes reads, at (p, n, o), the result at (p, o). -/
theorem overNodes_apply (v : FVec Ideal S4x128 .f32) (p : Fin 4) (n : Fin 4096) (o : Fin 128) :
    broadcastTo S4x4096x128 (shapeCast S4x1x128 v shapeCasts_S4x128_S4x1x128) broadcasts_S4x1x128_S4x4096x128 (ix3 p n o)
      = v (ix2 p o) := by
  refine (broadcastTo_apply _ broadcasts_S4x1x128_S4x4096x128 (ix3 p n o) (ix3 p (0 : Fin 1) o) fun a => ?_).trans ?_
  · match a with
    | ⟨0, _⟩ => show p.val = if (4 : Nat) = 1 then 0 else p.val; rw [if_neg (by decide)]
    | ⟨1, _⟩ => show (0 : Nat) = if (1 : Nat) = 1 then 0 else n.val; rw [if_pos rfl]
    | ⟨2, _⟩ => show o.val = if (128 : Nat) = 1 then 0 else o.val; rw [if_neg (by decide)]
  · refine shapeCast_apply v shapeCasts_S4x128_S4x1x128 (ix3 p (0 : Fin 1) o) (ix2 p o) ?_
    rw [Shape.rowMajor_val_three, Shape.rowMajor_val_two]
    show p.val * 128 + o.val = (p.val * 1 + 0) * 128 + o.val
    omega

/-- The hidden bias row, cast to itself and broadcast over the four rows, reads its one row. -/
theorem biasHidden_apply (v : FVec Ideal S1x256 .f32) (p : Fin 4) (h : Fin 256) :
    broadcastTo S4x256 (shapeCast S1x256 v shapeCasts_S1x256_S1x256) broadcasts_S1x256_S4x256 (ix2 p h) = v (ix2 (0 : Fin 1) h) := by
  rw [shapeCast_self]
  exact broadcastTo_1b_ab_apply v broadcasts_S1x256_S4x256 p h

/-- The output bias row likewise. -/
theorem biasOut_apply (v : FVec Ideal S1x128 .f32) (p : Fin 4) (o : Fin 128) :
    broadcastTo S4x128 (shapeCast S1x128 v shapeCasts_S1x128_S1x128) broadcasts_S1x128_S4x128 (ix2 p o) = v (ix2 (0 : Fin 1) o) := by
  rw [shapeCast_self]
  exact broadcastTo_1b_ab_apply v broadcasts_S1x128_S4x128 p o

/-! ## The sum over the nodes -/

/-- The reduction over the node axis at (row p, feature f) is the sum over the nodes of the block at (p, n, f). -/
theorem nodeSum_apply (v : Vec Ideal S4x4096x12 .f32) (hφ : FKind.Formats .f32)
    (hacc : (0x00000000#32 : BitVec 32) = 0x00000000#32) (p : Fin 4) (f : Fin 12) :
    multiReduction (F := Ideal) .add [1] S4x12 v 0x00000000#32 reduces_S4x4096x12_S4x12 hφ hacc (ix2 p f)
      = ∑ n : Fin 4096, v (ix3 p n f) :=
  (Ideal.multiReduction_add_single v 0x00000000#32 reduces_S4x4096x12_S4x12 hφ hacc (ix2 p f)).trans
    (Finset.sum_congr rfl fun n _ => congrArg v (funext fun a => Fin.ext (by
      match a with | ⟨0, _⟩ => rfl | ⟨1, _⟩ => rfl | ⟨2, _⟩ => rfl)))

/-! ## The two matrix products -/

theorem lhs1_row (i : S4x256.Idx) (q : dot_S4x12_S12x256_S4x256_1_0_0_1_n_n.contr.Idx) :
    (dot_S4x12_S12x256_S4x256_1_0_0_1_n_n.lhsIdx i q 0).val = (i 0).val := by
  unfold DotDims.lhsIdx
  rw [dif_neg (show ¬(0 : Fin S4x12.rank) ∈ dot_S4x12_S12x256_S4x256_1_0_0_1_n_n.lhsBatch by decide),
    dif_pos (show (0 : Fin S4x12.rank) ∈ dot_S4x12_S12x256_S4x256_1_0_0_1_n_n.lhsNonContracting by decide)]
  rfl
theorem rhs1_col (i : S4x256.Idx) (q : dot_S4x12_S12x256_S4x256_1_0_0_1_n_n.contr.Idx) :
    (dot_S4x12_S12x256_S4x256_1_0_0_1_n_n.rhsIdx i q 1).val = (i 1).val := by
  unfold DotDims.rhsIdx
  rw [dif_neg (show ¬(1 : Fin S12x256.rank) ∈ dot_S4x12_S12x256_S4x256_1_0_0_1_n_n.rhsBatch by decide),
    dif_pos (show (1 : Fin S12x256.rank) ∈ dot_S4x12_S12x256_S4x256_1_0_0_1_n_n.rhsNonContracting by decide)]
  rfl

/-- The first product into the zero accumulator, at (row p, hidden h): the sum over the 12 features. -/
theorem firstProduct_apply (a : FVec Ideal S4x12 .f32) (b : FVec Ideal S12x256 .f32) (p : Fin 4) (h : Fin 256) :
    matmul dot_S4x12_S12x256_S4x256_1_0_0_1_n_n (some .fp32) a b (constant (F := Ideal) S4x256 .f32 0x00000000#32) (ix2 p h)
      = ∑ f : Fin 12, a (ix2 p f) * b (ix2 f h) := by
  simp only [matmul]
  rw [Ideal.matmul_constant_zero_apply, ← Equiv.sum_comp (contrEquiv1 dot_S4x12_S12x256_S4x256_1_0_0_1_n_n 12 rfl rfl).symm]
  refine Finset.sum_congr rfl fun k _ => ?_
  have hk := contrEquiv1_symm_val dot_S4x12_S12x256_S4x256_1_0_0_1_n_n 12 rfl rfl k
  have el : dot_S4x12_S12x256_S4x256_1_0_0_1_n_n.lhsIdx (ix2 p h) ((contrEquiv1 dot_S4x12_S12x256_S4x256_1_0_0_1_n_n 12 rfl rfl).symm k) = ix2 p k :=
    funext fun c => Fin.ext (by
      match c with
      | ⟨0, _⟩ => exact lhs1_row _ _
      | ⟨1, _⟩ => exact (dot_S4x12_S12x256_S4x256_1_0_0_1_n_n.lhsIdx_val_of_single rfl _ _).trans hk)
  have er : dot_S4x12_S12x256_S4x256_1_0_0_1_n_n.rhsIdx (ix2 p h) ((contrEquiv1 dot_S4x12_S12x256_S4x256_1_0_0_1_n_n 12 rfl rfl).symm k) = ix2 k h :=
    funext fun c => Fin.ext (by
      match c with
      | ⟨0, _⟩ => exact (dot_S4x12_S12x256_S4x256_1_0_0_1_n_n.rhsIdx_val_of_single rfl _ _).trans hk
      | ⟨1, _⟩ => exact rhs1_col _ _)
  rw [el, er]

theorem lhs2_row (i : S4x128.Idx) (q : dot_S4x256_S256x128_S4x128_1_0_0_1_n_n.contr.Idx) :
    (dot_S4x256_S256x128_S4x128_1_0_0_1_n_n.lhsIdx i q 0).val = (i 0).val := by
  unfold DotDims.lhsIdx
  rw [dif_neg (show ¬(0 : Fin S4x256.rank) ∈ dot_S4x256_S256x128_S4x128_1_0_0_1_n_n.lhsBatch by decide),
    dif_pos (show (0 : Fin S4x256.rank) ∈ dot_S4x256_S256x128_S4x128_1_0_0_1_n_n.lhsNonContracting by decide)]
  rfl
theorem rhs2_col (i : S4x128.Idx) (q : dot_S4x256_S256x128_S4x128_1_0_0_1_n_n.contr.Idx) :
    (dot_S4x256_S256x128_S4x128_1_0_0_1_n_n.rhsIdx i q 1).val = (i 1).val := by
  unfold DotDims.rhsIdx
  rw [dif_neg (show ¬(1 : Fin S256x128.rank) ∈ dot_S4x256_S256x128_S4x128_1_0_0_1_n_n.rhsBatch by decide),
    dif_pos (show (1 : Fin S256x128.rank) ∈ dot_S4x256_S256x128_S4x128_1_0_0_1_n_n.rhsNonContracting by decide)]
  rfl

/-- The second product into the zero accumulator, at (row p, output o): the sum over the 256 hidden units. -/
theorem secondProduct_apply (a : FVec Ideal S4x256 .f32) (b : FVec Ideal S256x128 .f32) (p : Fin 4) (o : Fin 128) :
    matmul dot_S4x256_S256x128_S4x128_1_0_0_1_n_n (some .fp32) a b (constant (F := Ideal) S4x128 .f32 0x00000000#32) (ix2 p o)
      = ∑ h : Fin 256, a (ix2 p h) * b (ix2 h o) := by
  simp only [matmul]
  rw [Ideal.matmul_constant_zero_apply, ← Equiv.sum_comp (contrEquiv1 dot_S4x256_S256x128_S4x128_1_0_0_1_n_n 256 rfl rfl).symm]
  refine Finset.sum_congr rfl fun k _ => ?_
  have hk := contrEquiv1_symm_val dot_S4x256_S256x128_S4x128_1_0_0_1_n_n 256 rfl rfl k
  have el : dot_S4x256_S256x128_S4x128_1_0_0_1_n_n.lhsIdx (ix2 p o) ((contrEquiv1 dot_S4x256_S256x128_S4x128_1_0_0_1_n_n 256 rfl rfl).symm k) = ix2 p k :=
    funext fun c => Fin.ext (by
      match c with
      | ⟨0, _⟩ => exact lhs2_row _ _
      | ⟨1, _⟩ => exact (dot_S4x256_S256x128_S4x128_1_0_0_1_n_n.lhsIdx_val_of_single rfl _ _).trans hk)
  have er : dot_S4x256_S256x128_S4x128_1_0_0_1_n_n.rhsIdx (ix2 p o) ((contrEquiv1 dot_S4x256_S256x128_S4x128_1_0_0_1_n_n 256 rfl rfl).symm k) = ix2 k o :=
    funext fun c => Fin.ext (by
      match c with
      | ⟨0, _⟩ => exact (dot_S4x256_S256x128_S4x128_1_0_0_1_n_n.rhsIdx_val_of_single rfl _ _).trans hk
      | ⟨1, _⟩ => exact rhs2_col _ _)
  rw [el, er]

/-! ## The step's stored value -/

/-- What a step stores at (row p, node n, output o) of its block, from its five input blocks. -/
theorem stored_apply (v0 : Vec Ideal S4x4096x12 .f32) (v4 : Vec Ideal S12x256 .f32) (v6 : Vec Ideal S1x256 .f32)
    (v10 : Vec Ideal S256x128 .f32) (v12 : Vec Ideal S1x128 .f32) (p : Fin 4) (n : Fin 4096) (o : Fin 128) :
    k0_pay1 (F := Ideal) v0 v4 v6 v10 v12 (ix3 p n o)
      = (∑ h : Fin 256, ((∑ f : Fin 12, Ideal.div (∑ n' : Fin 4096, v0 (ix3 p n' f)) (Ideal.ofBits .f32 0x45800000#32) * v4 (ix2 f h))
          + v6 (ix2 (0 : Fin 1) h)) * v10 (ix2 h o)) + v12 (ix2 (0 : Fin 1) o) := by
  unfold k0_pay1
  dsimp only
  rw [overNodes_apply, addf_apply, secondProduct_apply, biasOut_apply]
  simp only [addf_apply, firstProduct_apply, biasHidden_apply, divf_apply, broadcast_apply]
  exact congrArg (· + v12 (ix2 (0 : Fin 1) o)) (Finset.sum_congr rfl fun h _ =>
    congrArg (· * v10 (ix2 h o)) (congrArg (· + v6 (ix2 (0 : Fin 1) h)) (Finset.sum_congr rfl fun f _ =>
      congrArg (fun s => Ideal.div s (Ideal.ofBits .f32 0x45800000#32) * v4 (ix2 f h)) (nodeSum_apply v0 _ _ p f))))

end Cert.KernelIdeal.Step

end
-- ==== Proof.WholeArray.lean ====
/-
  From the grid steps to the whole result array.

  Step `t` of the eight holds batch rows 4t … 4t + 3: its `x` block and its output block sit at block index (t, 0, 0), the
  two weight matrices and the two bias rows are whole arrays at block index (0, 0) at every step, and the bias rows are
  the [256] and [128] arguments reshaped to one row.  So what step `t` writes back is its block of the average-first
  reading of the five argument arrays (`MeanLinear.viaMean`), the eight output blocks tile the [32, 4096, 128] result, and
  the result array ends holding that reading.
-/
import proofs.«161491_j60945585930893_2_alg».proof.Proof.Gen.KernelIdeal.Value
import proofs.«161491_j60945585930893_2_alg».proof.Proof.StepValue
import proofs.«161491_j60945585930893_2_alg».proof.Proof.MeanLinear
import Idealize.ShloMosaic.Lib.Pipeline.Value
import Idealize.ShloMosaic.Lib.StableHlo.Run
import Idealize.ShloMosaic.Lib.ValueLayout
import Idealize.ShloMosaic.Lib.Tactic

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The result: the average-first reading of the five argument arrays as launched. -/
abbrev result (c : Dev nD) : Buf (Elt Ideal) ((c : Thread nD τ).loc main_v2) :=
  Cert.MeanLinear.viaMean (m ((c : Thread nD τ).loc main_arg0)) (m ((c : Thread nD τ).loc main_arg1))
    (m ((c : Thread nD τ).loc main_arg2)) (m ((c : Thread nD τ).loc main_arg3)) (m ((c : Thread nD τ).loc main_arg4))

/-! ## Where each step's blocks sit -/

/-- The printed index maps, decided over the eight steps: the `x` block moves with the output block along the batch
    axis, every other block index is zero, and the output's batch block index is at most 7. -/
theorem idx_facts : ∀ t : Fin cfg0.N,
    win0_0.index t (0 : Fin 3) = win0_5.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 7 ∧ win0_5.index t (1 : Fin 3) = 0 ∧ win0_5.index t (2 : Fin 3) = 0 :=
  (by decide +kernel : ∀ t : Fin grid0.N, _)

/-- Every batch block is some step's. -/
theorem idx_onto : ∀ q : Fin 8, ∃ t : Fin cfg0.N, win0_5.index t (0 : Fin 3) = q.val :=
  (by decide +kernel : ∀ q : Fin 8, ∃ t : Fin grid0.N, win0_5.index t (0 : Fin 3) = q.val)

/-! ## The bias rows as the region finds them -/

/-- The hidden bias row is the [256] argument reshaped to [1, 256]. -/
theorem biasHidden_array (c : Dev nD) :
    (V m c main_v0 : S1x256.Idx → EReal)
      = shapeCast S1x256 (m ((c : Thread nD τ).loc main_arg2) : S256.Idx → EReal) shapeCasts_S256_S1x256 := by
  dsimp only [V, hostOps0]; after_results; rfl

/-- The output bias row is the [128] argument reshaped to [1, 128]. -/
theorem biasOut_array (c : Dev nD) :
    (V m c main_v1 : S1x128.Idx → EReal)
      = shapeCast S1x128 (m ((c : Thread nD τ).loc main_arg4) : S128.Idx → EReal) shapeCasts_S128_S1x128 := by
  dsimp only [V, hostOps0]; after_results; rfl

/-! ## Each block read at an index -/

/-- The `x` block of step `t` at (p, n, f) is the argument at (b, n, f), `b` the batch row 4·(block index) + p. -/
theorem x_block (c : Dev nD) (t : Fin cfg0.N) (p : Fin 4) (n : Fin 4096) (f : Fin 12) (b : Fin 32)
    (hb : b.val = win0_5.index t (0 : Fin 3) * 4 + p.val) :
    (iblk m c 0 t : Vec Ideal S4x4096x12 .f32) (ix3 p n f)
      = (m ((c : Thread nD τ).loc main_arg0) : S32x4096x12.Idx → EReal) (ix3 b n f) := by
  obtain ⟨e0, e1, e2, -⟩ := idx_facts t
  unfold iblk
  rw [View.read_apply]
  show V m c main_arg0 _ = _
  rw [V_main_arg0]
  refine congrArg (m ((c : Thread nD τ).loc main_arg0) : S32x4096x12.Idx → EReal) (funext fun a => Fin.ext ?_)
  match a with
  | ⟨0, _⟩ => show win0_0.index t (0 : Fin 3) * 4 + 1 * p.val = b.val; omega
  | ⟨1, _⟩ => show win0_0.index t (1 : Fin 3) * 4096 + 1 * n.val = n.val; omega
  | ⟨2, _⟩ => show win0_0.index t (2 : Fin 3) * 12 + 1 * f.val = f.val; omega

/-- The first weight block is the whole first weight matrix. -/
theorem w1_block (c : Dev nD) (t : Fin cfg0.N) (f : Fin 12) (h : Fin 256) :
    (iblk m c 1 t : Vec Ideal S12x256 .f32) (ix2 f h)
      = (m ((c : Thread nD τ).loc main_arg1) : S12x256.Idx → EReal) (ix2 f h) := by
  obtain ⟨-, -, -, e0, e1, -⟩ := idx_facts t
  unfold iblk
  rw [View.read_apply]
  show V m c main_arg1 _ = _
  rw [V_main_arg1]
  refine congrArg (m ((c : Thread nD τ).loc main_arg1) : S12x256.Idx → EReal) (funext fun a => Fin.ext ?_)
  match a with
  | ⟨0, _⟩ => show win0_1.index t (0 : Fin 2) * 12 + 1 * f.val = f.val; omega
  | ⟨1, _⟩ => show win0_1.index t (1 : Fin 2) * 256 + 1 * h.val = h.val; omega

/-- The hidden bias block's one row is the [256] bias argument. -/
theorem b1_block (c : Dev nD) (t : Fin cfg0.N) (h : Fin 256) :
    (iblk m c 2 t : Vec Ideal S1x256 .f32) (ix2 (0 : Fin 1) h)
      = (m ((c : Thread nD τ).loc main_arg2) : S256.Idx → EReal) (ix1 h) := by
  obtain ⟨-, -, -, -, -, e0, e1, -⟩ := idx_facts t
  unfold iblk
  rw [View.read_apply]
  show (V m c main_v0 : S1x256.Idx → EReal) _ = _
  rw [biasHidden_array]
  refine (congrArg (shapeCast S1x256 (m ((c : Thread nD τ).loc main_arg2) : S256.Idx → EReal) shapeCasts_S256_S1x256)
    (funext fun a => Fin.ext ?_ : _ = ix2 (0 : Fin 1) h)).trans (shapeCast_a_1a_apply _ _ (0 : Fin 1) h)
  match a with
  | ⟨0, _⟩ => show win0_2.index t (0 : Fin 2) * 1 + 1 * 0 = 0; omega
  | ⟨1, _⟩ => show win0_2.index t (1 : Fin 2) * 256 + 1 * h.val = h.val; omega

/-- The second weight block is the whole second weight matrix. -/
theorem w2_block (c : Dev nD) (t : Fin cfg0.N) (h : Fin 256) (o o' : Fin 128) (ho : o'.val = o.val) :
    (iblk m c 3 t : Vec Ideal S256x128 .f32) (ix2 h o)
      = (m ((c : Thread nD τ).loc main_arg3) : S256x128.Idx → EReal) (ix2 h o') := by
  obtain ⟨-, -, -, -, -, -, -, e0, e1, -⟩ := idx_facts t
  unfold iblk
  rw [View.read_apply]
  show V m c main_arg3 _ = _
  rw [V_main_arg3]
  refine congrArg (m ((c : Thread nD τ).loc main_arg3) : S256x128.Idx → EReal) (funext fun a => Fin.ext ?_)
  match a with
  | ⟨0, _⟩ => show win0_3.index t (0 : Fin 2) * 256 + 1 * h.val = h.val; omega
  | ⟨1, _⟩ => show win0_3.index t (1 : Fin 2) * 128 + 1 * o.val = o'.val; omega

/-- The output bias block's one row is the [128] bias argument. -/
theorem b2_block (c : Dev nD) (t : Fin cfg0.N) (o o' : Fin 128) (ho : o'.val = o.val) :
    (iblk m c 4 t : Vec Ideal S1x128 .f32) (ix2 (0 : Fin 1) o)
      = (m ((c : Thread nD τ).loc main_arg4) : S128.Idx → EReal) (ix1 o') := by
  obtain ⟨-, -, -, -, -, -, -, -, -, e0, e1, -⟩ := idx_facts t
  obtain rfl : o' = o := Fin.ext ho
  unfold iblk
  rw [View.read_apply]
  show (V m c main_v1 : S1x128.Idx → EReal) _ = _
  rw [biasOut_array]
  refine (congrArg (shapeCast S1x128 (m ((c : Thread nD τ).loc main_arg4) : S128.Idx → EReal) shapeCasts_S128_S1x128)
    (funext fun a => Fin.ext ?_ : _ = ix2 (0 : Fin 1) o')).trans (shapeCast_a_1a_apply _ _ (0 : Fin 1) o')
  match a with
  | ⟨0, _⟩ => show win0_4.index t (0 : Fin 2) * 1 + 1 * 0 = 0; omega
  | ⟨1, _⟩ => show win0_4.index t (1 : Fin 2) * 128 + 1 * o'.val = o'.val; omega

/-! ## What a step writes back -/

/-- What step `t` stores at an index of its output block is the result at that index's place in the array. -/
theorem stored_at (c : Dev nD) (t : Fin cfg0.N) (p : Fin 4) (n : Fin 4096) (o : Fin 128) (i : S32x4096x128.Idx)
    (h0 : (i 0).val = win0_5.index t (0 : Fin 3) * 4 + p.val) (h2 : (i 2).val = o.val) :
    k0_pay1 (F := Ideal) (iblk m c 0 t) (iblk m c 1 t) (iblk m c 2 t) (iblk m c 3 t) (iblk m c 4 t) (ix3 p n o) = result m c i := by
  rw [Cert.KernelIdeal.Step.stored_apply (iblk m c 0 t) (iblk m c 1 t) (iblk m c 2 t) (iblk m c 3 t) (iblk m c 4 t) p n o]
  show _ = Cert.MeanLinear.outOfMean _ _ _ _ _ (i 0) (i 2)
  unfold Cert.MeanLinear.outOfMean Cert.MeanLinear.hiddenOfMean
  refine congrArg₂ (· + ·) (Finset.sum_congr rfl fun h _ => congrArg₂ (· * ·) (congrArg₂ (· + ·)
    (Finset.sum_congr rfl fun f _ => congrArg₂ (· * ·)
      (congrArg (fun s => Ideal.div s (Ideal.ofBits .f32 0x45800000#32))
        (Finset.sum_congr rfl fun n' _ => x_block m c t p n' f (i 0) h0))
      (w1_block m c t f h))
    (b1_block m c t h)) (w2_block m c t h o (i 2) h2)) (b2_block m c t o (i 2) h2)

theorem flushed_eq (c : Dev nD) (t : Fin cfg0.N) :
    (dats m 0 c).flushed 5 t = ((cfg0.win 5).blk t).view.read (Elt Ideal) (result m c) := by
  rw [flushed5]
  unfold out0_5
  rw [View.canon_unit_zero zeros3]
  simp only [View.ld_unit_zero (S := S4x4096x12) zeros3, View.ld_unit_zero (S := S12x256) zeros2,
    View.ld_unit_zero (S := S1x256) zeros2, View.ld_unit_zero (S := S256x128) zeros2, View.ld_unit_zero (S := S1x128) zeros2]
  obtain ⟨-, -, -, -, -, -, -, -, -, -, -, -, e1, e2⟩ := idx_facts t
  funext y
  show k0_pay1 (F := Ideal) (iblk m c 0 t) (iblk m c 1 t) (iblk m c 2 t) (iblk m c 3 t) (iblk m c 4 t) (ix3 (y 0) (y 1) (y 2))
    = result m c (((cfg0.win 5).blk t).view.emb y)
  refine stored_at m c t (y 0) (y 1) (y 2) _ ?_ ?_
  · show win0_5.index t (0 : Fin 3) * 4 + 1 * (y 0).val = win0_5.index t (0 : Fin 3) * 4 + (y 0).val; omega
  · show win0_5.index t (2 : Fin 3) * 128 + 1 * (y 2).val = (y 2).val; omega

/-! ## The eight blocks tile the result -/

/-- An index of the array is in step `t`'s block iff each coordinate is in the block's range on its axis. -/
theorem mem_blk (t : Fin cfg0.N) (i : S32x4096x128.Idx) :
    i ∈ ((cfg0.win 5).blk t).view.set ↔ ∀ a : Fin 3, win0_5.index t a * S4x4096x128.size a ≤ (i a).val
      ∧ (i a).val < win0_5.index t a * S4x4096x128.size a + S4x4096x128.size a := by
  show i ∈ ((View.whole main_v2).slice (win0_5.rect t)).set ↔ _
  rw [View.set_slice_whole, Rect.mem_set_unit]
  exact Iff.rfl

/-- Batch row `r` is in the block of the step whose batch block index is r / 4. -/
theorem cover (i : S32x4096x128.Idx) :
    ∃ t : Fin cfg0.N, (cfg0.win 5).flush t = true ∧ i ∈ ((cfg0.win 5).blk t).view.set := by
  have hi0 : (i 0).val < 32 := (i 0).isLt
  have hi1 : (i 1).val < 4096 := (i 1).isLt
  have hi2 : (i 2).val < 128 := (i 2).isLt
  obtain ⟨t, ht⟩ := idx_onto ⟨(i 0).val / 4, by omega⟩
  have q0 : win0_5.index t (0 : Fin 3) = (i 0).val / 4 := ht
  obtain ⟨-, -, -, -, -, -, -, -, -, -, -, -, e1, e2⟩ := idx_facts t
  refine ⟨t, flush0_5 t, ?_⟩
  rw [mem_blk]
  intro a
  match a with
  | ⟨0, _⟩ => show win0_5.index t (0 : Fin 3) * 4 ≤ (i 0).val ∧ (i 0).val < win0_5.index t (0 : Fin 3) * 4 + 4; omega
  | ⟨1, _⟩ => show win0_5.index t (1 : Fin 3) * 4096 ≤ (i 1).val ∧ (i 1).val < win0_5.index t (1 : Fin 3) * 4096 + 4096; omega
  | ⟨2, _⟩ => show win0_5.index t (2 : Fin 3) * 128 ≤ (i 2).val ∧ (i 2).val < win0_5.index t (2 : Fin 3) * 128 + 128; omega

/-- The result array after the run is the average-first reading of the arguments. -/
theorem final (c : Dev nD) : (dats m 0 c).arrAt 5 cfg0.N = result m c :=
  (dats m 0 c).arrAt_eq_of_cover 5 (result m c) (fun t _ => flushed_eq m c t) cover

/-- The run, read: the result array at the average-first reading, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.lean ====
/-
  Two graph-convolution layers on a complete graph: each layer is a linear map, a mean over the 4096 nodes broadcast back
  to every node, and a bias.  The kernel takes the mean of the input over the nodes first and then applies
  `(· W1 + b1) W2 + b2` once per batch row, writing the same row at every node; the reference applies each layer's
  linear map at every node and averages afterwards.  On finite arguments the two are one function: a linear map
  commutes with a finite mean, and the second layer averages 4096 equal rows (Proof/MeanLinear.lean).

  The pieces: the kernel's result array as the average-first reading of the arguments (Proof/StepValue.lean: one grid
  step's stored value at an index; Proof/WholeArray.lean: the eight steps' blocks tile the array), the reference's
  result as the node-by-node reading (Proof/NodeByNode.lean), the arguments as arrays of reals under the precondition
  (Proof/FiniteArgs.lean), and the law between the two readings.  The kernel's idealization rewrites nothing, so it is
  the kernel's own text read on the extended reals.
-/
import proofs.«161491_j60945585930893_2_alg».proof.Defs
import proofs.«161491_j60945585930893_2_alg».proof.Proof.Gen.Kernel
import proofs.«161491_j60945585930893_2_alg».proof.Proof.Gen.Kernel.Skeleton
import proofs.«161491_j60945585930893_2_alg».proof.Proof.Gen.Kernel.Launch
import proofs.«161491_j60945585930893_2_alg».proof.Proof.Gen.Kernel.Points
import proofs.«161491_j60945585930893_2_alg».proof.Proof.Gen.Kernel.Frame
import proofs.«161491_j60945585930893_2_alg».proof.Proof.Gen.KernelIdeal
import proofs.«161491_j60945585930893_2_alg».proof.Proof.Gen.KernelIdeal.Skeleton
import proofs.«161491_j60945585930893_2_alg».proof.Proof.Gen.KernelIdeal.Launch
import proofs.«161491_j60945585930893_2_alg».proof.Proof.Gen.KernelIdeal.Points
import proofs.«161491_j60945585930893_2_alg».proof.Proof.Gen.KernelIdeal.Frame
import proofs.«161491_j60945585930893_2_alg».proof.Proof.Gen.ReferenceIdeal
import proofs.«161491_j60945585930893_2_alg».proof.Proof.Gen.Pre_finite_inputs
import proofs.«161491_j60945585930893_2_alg».proof.Proof.Gen.KernelIdeal.Value
import proofs.«161491_j60945585930893_2_alg».proof.Proof.Gen.ReferenceIdeal.Run
import proofs.«161491_j60945585930893_2_alg».proof.Proof.Gen.ReferenceIdeal.Read
import proofs.«161491_j60945585930893_2_alg».proof.Proof.MeanLinear
import proofs.«161491_j60945585930893_2_alg».proof.Proof.NodeByNode
import proofs.«161491_j60945585930893_2_alg».proof.Proof.FiniteArgs
import proofs.«161491_j60945585930893_2_alg».proof.Proof.WholeArray
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the average-first reading of the (agreeing, finite) arguments: the kernel's result array is
    that reading outright, the reference's is the node-by-node reading, and on arrays of reals the two readings agree. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq _ _ _ _ _).trans ?_
  refine (Cert.ReferenceIdeal.NodeByNode.result_eq _ _ _ _ _).trans ?_
  rw [(hagree c).1, (hagree c).2.1, (hagree c).2.2.1, (hagree c).2.2.2.1, (hagree c).2.2.2.2]
  obtain ⟨⟨A0, e0⟩, ⟨A1, e1⟩, ⟨A2, e2⟩, ⟨A3, e3⟩, ⟨A4, e4⟩⟩ := Cert.FiniteArgs.reals_of_pre _ _ _ _ _ (hpre c)
  show Cert.MeanLinear.viaNodes _ _ _ _ _ = Cert.MeanLinear.viaMean _ _ _ _ _
  rw [e0, e1, e2, e3, e4]
  exact Cert.MeanLinear.viaNodes_eq_viaMean A0 A1 A2 A3 A4

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
